-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024 : Shape := ⟨3, ![32, 1, 1024]⟩
abbrev S32x2048x1024 : Shape := ⟨3, ![32, 2048, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1 .f32 := Host.absf main_arg6
  let main_cst_10 : FVec F S_ .f32 := constant S_ .f32 0x7F800000#32
  let main_v30 : FVec F S1024x1 .f32 := broadcastInDim S1024x1 ![] bcast_S_S1024x1 main_cst_10
  let main_v31 : IVec S1024x1 1 := cmpf .olt main_v29 main_v30
  let main_c_11 : IVec S_ 1 := constantI S_ 1 1#1
  let main_v32 : IVec S_ 1 := (fun x v => Host.reduce IntOp.andi x v reducesTo_S1024x1_S_d0_1 h_S_) main_v31 main_c_11
  let main_v33 : IVec S_ 1 := andi main_v28 main_v32
  fn_part2 (F := F) main_arg7 main_v33

def fn {F : FTy → Type} [FloatOps F] (main_arg0 : FVec F S32x1x1024 .f32) (main_arg1 : FVec F S32x2048x1024 .f32) (main_arg2 : FVec F S1024x1024 .f32) (main_arg3 : FVec F S1024 .f32) (main_arg4 : FVec F S1024x1024 .f32) (main_arg5 : FVec F S1024 .f32) (main_arg6 : FVec F S1024x1 .f32) (main_arg7 : FVec F S1 .f32) : IVec S_ 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S32x1x1024 : Shape := ⟨3, ![32, 1, 1024]⟩
abbrev S32x2048x1024 : Shape := ⟨3, ![32, 2048, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S32x1x2048 : Shape := ⟨3, ![32, 1, 2048]⟩
abbrev S1x1x1024 : Shape := ⟨3, ![1, 1, 1024]⟩
abbrev S1x2048x1024 : Shape := ⟨3, ![1, 2048, 1024]⟩
abbrev S1x1x2048 : Shape := ⟨3, ![1, 1, 2048]⟩
abbrev S2048x1 : Shape := ⟨2, ![2048, 1]⟩
abbrev S1x1024 : Shape := ⟨2, ![1, 1024]⟩
abbrev S1x1 : Shape := ⟨2, ![1, 1]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S2048x1024 : Shape := ⟨2, ![2048, 1024]⟩
abbrev S1x2048 : Shape := ⟨2, ![1, 2048]⟩
abbrev S32x1024 : Shape := ⟨2, ![32, 1024]⟩
abbrev S32x2048x1 : Shape := ⟨3, ![32, 2048, 1]⟩

abbrev nBuf : Space → Nat
  | .hbm => 13
  | .vmem => 15
  | .smem => 0
  | _ => 0

abbrev bufTy : (tb : Table) → Fin (tcTables nBuf tb) → BufTy
  | .hbm, ⟨0, _⟩ => ⟨S32x1x1024, .f32⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S1024x1024, .bf16⟩
  | .hbm, ⟨9, _⟩ => ⟨S32x1x1024, .f32⟩
  | .hbm, ⟨10, _⟩ => ⟨S32x1x2048, .f32⟩
  | .hbm, ⟨11, _⟩ => ⟨S32x1024, .f32⟩
  | .hbm, ⟨12, _⟩ => ⟨S32x2048x1, .f32⟩
  | .local _ .vmem, ⟨0, _⟩ => ⟨S1x1x1024, .f32⟩
  | .local _ .vmem, ⟨1, _⟩ => ⟨S1x1x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .f32⟩
  | .local _ .vmem, ⟨7, _⟩ => ⟨S1024, .f32⟩
  | .local _ .vmem, ⟨8, _⟩ => ⟨S1024x1, .f32⟩
  | .local _ .vmem, ⟨9, _⟩ => ⟨S1, .f32⟩
  | .local _ .vmem, ⟨10, _⟩ => ⟨S1x1x1024, .f32⟩
  | .local _ .vmem, ⟨11, _⟩ => ⟨S1x1x1024, .f32⟩
  | .local _ .vmem, ⟨12, _⟩ => ⟨S1x1x2048, .f32⟩
  | .local _ .vmem, ⟨13, _⟩ => ⟨S1x1x2048, .f32⟩
  | .local _ .vmem, ⟨14, _⟩ => ⟨S2048x1, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024_S1024_0 : ∀ a, (![0] : Fin 1 → Nat) a + S1024.size a ≤ S1024.size a
  h_S1024 : 0 < S1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  transposes_S1024x1_p1_0_S1x1024 : S1024x1.Transposes [1, 0] S1x1024
  inb_S1_S1_0 : ∀ a, (![0] : Fin 1 → Nat) a + S1.size a ≤ S1.size a
  h_S1 : 0 < S1.numel
  shapeCasts_S1_S1x1 : S1.ShapeCasts S1x1
  inb_S1x2048x1024_S1x256x1024_0_0_0 : ∀ a, (![0, 0, 0] : Fin 3 → Nat) a + S1x256x1024.size a ≤ S1x2048x1024.size a
  h_S1x256x1024 : 0 < S1x256x1024.numel
  shapeCasts_S1x256x1024_S256x1024 : S1x256x1024.ShapeCasts S256x1024
  broadcasts_S1x1024_S256x1024 : S1x1024.Broadcasts S256x1024
  reduces_S256x1024_S256 : S256x1024.Reduces [1] S256
  shapeCasts_S256_S256x1 : S256.ShapeCasts S256x1
  broadcasts_S1x1_S256x1 : S1x1.Broadcasts S256x1
  inb_S2048x1_S256x1_0_0 : ∀ a, (![0, 0] : Fin 2 → Nat) a + S256x1.size a ≤ S2048x1.size a
  h_S256x1 : 0 < S256x1.numel
  shapeCasts_S256x1_S256x1 : S256x1.ShapeCasts S256x1
  inb_S1x2048x1024_S1x256x1024_0_256_0 : ∀ a, (![0, 256, 0] : Fin 3 → Nat) a + S1x256x1024.size a ≤ S1x2048x1024.size a
  inb_S2048x1_S256x1_256_0 : ∀ a, (![256, 0] : Fin 2 → Nat) a + S256x1.size a ≤ S2048x1.size a
  inb_S1x2048x1024_S1x256x1024_0_512_0 : ∀ a, (![0, 512, 0] : Fin 3 → Nat) a + S1x256x1024.size a ≤ S1x2048x1024.size a
  inb_S2048x1_S256x1_512_0 : ∀ a, (![512, 0] : Fin 2 → Nat) a + S256x1.size a ≤ S2048x1.size a
  inb_S1x2048x1024_S1x256x1024_0_768_0 : ∀ a, (![0, 768, 0] : Fin 3 → Nat) a + S1x256x1024.size a ≤ S1x2048x1024.size a
  inb_S2048x1_S256x1_768_0 : ∀ a, (![768, 0] : Fin 2 → Nat) a + S256x1.size a ≤ S2048x1.size a
  inb_S1x2048x1024_S1x256x1024_0_1024_0 : ∀ a, (![0, 1024, 0] : Fin 3 → Nat) a + S1x256x1024.size a ≤ S1x2048x1024.size a
  inb_S2048x1_S256x1_1024_0 : ∀ a, (![1024, 0] : Fin 2 → Nat) a + S256x1.size a ≤ S2048x1.size a
  inb_S1x2048x1024_S1x256x1024_0_1280_0 : ∀ a, (![0, 1280, 0] : Fin 3 → Nat) a + S1x256x1024.size a ≤ S1x2048x1024.size a
  inb_S2048x1_S256x1_1280_0 : ∀ a, (![1280, 0] : Fin 2 → Nat) a + S256x1.size a ≤ S2048x1.size a
  inb_S1x2048x1024_S1x256x1024_0_1536_0 : ∀ a, (![0, 1536, 0] : Fin 3 → Nat) a + S1x256x1024.size a ≤ S1x2048x1024.size a
  inb_S2048x1_S256x1_1536_0 : ∀ a, (![1536, 0] : Fin 2 → Nat) a + S256x1.size a ≤ S2048x1.size a
  inb_S1x2048x1024_S1x256x1024_0_1792_0 : ∀ a, (![0, 1792, 0] : Fin 3 → Nat) a + S1x256x1024.size a ≤ S1x2048x1024.size a
  inb_S2048x1_S256x1_1792_0 : ∀ a, (![1792, 0] : Fin 2 → Nat) a + S256x1.size a ≤ S2048x1.size a
  inb_S2048x1_S2048x1_0_0 : ∀ a, (![0, 0] : Fin 2 → Nat) a + S2048x1.size a ≤ S2048x1.size a
  h_S2048x1 : 0 < S2048x1.numel
  reduces_S2048x1_S1 : S2048x1.Reduces [0] S1
  broadcasts_S1x1_S2048x1 : S1x1.Broadcasts S2048x1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1_p1_0_S1x2048 : S2048x1.Transposes [1, 0] S1x2048
  shapeCasts_S1x1024_S1x1x1024 : S1x1024.ShapeCasts S1x1x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S32x1x1024_S32x1024 : S32x1x1024.ShapeCasts S32x1024
  transposes_S32x1x2048_S32x2048x1_0_2_1 : S32x1x2048.Transposes [0, 2, 1] S32x2048x1
  dot_S1x1024_S1024x1024_S1x1024_1_0_0_1_n_n_wf : DotDims.WF S1x1024 S1024x1024 S1x1024 [1] [0] [0] [1] [] []
  dot_S256x1024_S1024x1024_S256x1024_1_0_0_1_n_n_wf : DotDims.WF S256x1024 S1024x1024 S256x1024 [1] [0] [0] [1] [] []
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .f32 = 32 ∨ (Rect.block (s := S32x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S32x2048x1024.size a
  hwx0_1 : ∀ i : grid0.Coords, EltTy.bits .f32 = 32 ∨ (Rect.block (s := S32x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S1024x1.size a
  hwx0_6 : ∀ i : grid0.Coords, EltTy.bits .f32 = 32 ∨ (Rect.block (s := S1024x1) S1024x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S32x1x1024.size a
  hwx0_8 : ∀ i : grid0.Coords, EltTy.bits .f32 = 32 ∨ (Rect.block (s := S32x1x1024) S1x1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x2048.size a ≤ S32x1x2048.size a
  hwx0_9 : ∀ i : grid0.Coords, EltTy.bits .f32 = 32 ∨ (Rect.block (s := S32x1x2048) S1x1x2048.size (cc0_transform_9 i) (hinb0_9 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_arg0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_0) S1x1x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_1) S1x1x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x1x1024 : Shape := ⟨3, ![32, 1, 1024]⟩
abbrev S32x2048x1024 : Shape := ⟨3, ![32, 2048, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S32x2048x1 : Shape := ⟨3, ![32, 2048, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩
abbrev S32x1024 : Shape := ⟨2, ![32, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1, .f32⟩
  | .hbm, ⟨7, _⟩ => ⟨S1, .f32⟩
  | .hbm, ⟨8, _⟩ => ⟨S32x2048x1024, .f32⟩
  | .hbm, ⟨9, _⟩ => ⟨S1x1x1024, .f32⟩
  | .hbm, ⟨10, _⟩ => ⟨S32x2048x1024, .f32⟩
  | .hbm, ⟨11, _⟩ => ⟨S32x2048x1024, .f32⟩
  | .hbm, ⟨12, _⟩ => ⟨S32x1x1024, .f32⟩
  | .hbm, ⟨13, _⟩ => ⟨S32x2048x1024, .f32⟩
  | .hbm, ⟨14, _⟩ => ⟨S32x2048x1024, .f32⟩
  | .hbm, ⟨15, _⟩ => ⟨S1x1x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1, .f32⟩
  | .hbm, ⟨20, _⟩ => ⟨S1x1x1, .f32⟩
  | .hbm, ⟨21, _⟩ => ⟨S32x2048x1, .f32⟩
  | .hbm, ⟨22, _⟩ => ⟨S32x2048x1, .f32⟩
  | .hbm, ⟨23, _⟩ => ⟨S_, .f32⟩
  | .hbm, ⟨24, _⟩ => ⟨S32x1, .f32⟩
  | .hbm, ⟨25, _⟩ => ⟨S_, .f32⟩
  | .hbm, ⟨26, _⟩ => ⟨S32x1, .f32⟩
  | .hbm, ⟨27, _⟩ => ⟨S32x1, .f32⟩
  | .hbm, ⟨28, _⟩ => ⟨S32x1x1, .f32⟩
  | .hbm, ⟨29, _⟩ => ⟨S32x2048x1, .f32⟩
  | .hbm, ⟨30, _⟩ => ⟨S32x2048x1, .f32⟩
  | .hbm, ⟨31, _⟩ => ⟨S32x2048x1, .f32⟩
  | .hbm, ⟨32, _⟩ => ⟨S_, .f32⟩
  | .hbm, ⟨33, _⟩ => ⟨S32x1, .f32⟩
  | .hbm, ⟨34, _⟩ => ⟨S32x1x1, .f32⟩
  | .hbm, ⟨35, _⟩ => ⟨S32x2048x1, .f32⟩
  | .hbm, ⟨36, _⟩ => ⟨S32x2048x1, .f32⟩
  | .hbm, ⟨37, _⟩ => ⟨S32x2048x1024, .f32⟩
  | .hbm, ⟨38, _⟩ => ⟨S32x2048x1024, .f32⟩
  | .hbm, ⟨39, _⟩ => ⟨S_, .f32⟩
  | .hbm, ⟨40, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S32x1x1024_S32x2048x1024_0_1_2 : S32x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x1024_0_1_2 : S32x2048x1.BroadcastsInDim S32x2048x1024 (![0, 1, 2] : Fin 3 → Fin S32x2048x1024.rank)
  reducesTo_S32x2048x1024_S32x1024_d1 : S32x2048x1024.ReducesTo [1] S32x1024
  dot_S32x2048x1024_S1024x1024_S32x2048x1024_2_0_01_1_n_n_wf : DotDims.WF S32x2048x1024 S1024x1024 S32x2048x1024 [2] [0] [0, 1] [1] [] []
  dot_S32x1x1024_S1024x1024_S32x1x1024_2_0_01_1_n_n_wf : DotDims.WF S32x1x1024 S1024x1024 S32x1x1024 [2] [0] [0, 1] [1] [] []
  dot_S32x2048x1024_S1024x1_S32x2048x1_2_0_01_1_n_n_wf : DotDims.WF S32x2048x1024 S1024x1 S32x2048x1 [2] [0] [0, 1] [1] [] []

variable [Facts₀]

def dot_S32x2048x1024_S1024x1024_S32x2048x1024_2_0_01_1_n_n : DotDims S32x2048x1024 S1024x1024 S32x2048x1024 where
  lhsContracting := [2]
  rhsContracting := [0]
  lhsNonContracting := [0, 1]
  rhsNonContracting := [1]
  lhsBatch := []
  rhsBatch := []
  wf := dot_S32x2048x1024_S1024x1024_S32x2048x1024_2_0_01_1_n_n_wf
def dot_S32x1x1024_S1024x1024_S32x1x1024_2_0_01_1_n_n : DotDims S32x1x1024 S1024x1024 S32x1x1024 where
  lhsContracting := [2]
  rhsContracting := [0]
  lhsNonContracting := [0, 1]
  rhsNonContracting := [1]
  lhsBatch := []
  rhsBatch := []
  wf := dot_S32x1x1024_S1024x1024_S32x1x1024_2_0_01_1_n_n_wf
def dot_S32x2048x1024_S1024x1_S32x2048x1_2_0_01_1_n_n : DotDims S32x2048x1024 S1024x1 S32x2048x1 where
  lhsContracting := [2]
  rhsContracting := [0]
  lhsNonContracting := [0, 1]
  rhsNonContracting := [1]
  lhsBatch := []
  rhsBatch := []
  wf := dot_S32x2048x1024_S1024x1_S32x2048x1_2_0_01_1_n_n_wf

class Facts : Prop extends Facts₀ where

variable [Facts]
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«179657_j90993177133839_2_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Chunk.lean ====
/-
  One chunk of 256 value rows.  The body computes the scores chunk by chunk (eight chunks of 256 rows); every chunk is the
  same function of the chunk's rows and of four values computed once: the bf16 copy of W1, the projected query row
  q·W2 + b2, the row of Vw and the scalar Vb.  Here: each of the eight stored values is that one function, and the
  function read at row p is
      (sum over u of tanh ((sum_d rows p d * W1 d u + b1 u) + qp u) * vw u) + vb.
  The projected query row, the row of Vw and the scalar are read at an index too.
-/
import proofs.«179657_j90993177133839_2_alg».proof.Proof.Gen.KernelIdeal.Skeleton
import proofs.«179657_j90993177133839_2_alg».proof.Proof.LibPlainLists
import proofs.«179657_j90993177133839_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Kernel

open Idealize.ShloMosaic Idealize.ShloMosaic.ValueIdx Cert.KernelIdeal Cert.KernelIdeal.Gen Cert.LibMatmulSum

section AnyInstance
variable {F : FTy → Type} [FloatOps F]

/-- The eight stored chunk values are one function of the chunk's rows. -/
theorem chunk0 (v0 : Vec F S1x1x1024 .f32) (v2 : Vec F S1024 .f32) (v3 : Vec F S1024x1024 .f32) (v4 : Vec F S1024 .f32)
    (v5 : Vec F S1024x1024 .bf16) (v10 : Vec F S1024x1 .f32) (v12 : Vec F S1 .f32) (vc : Vec F S1x256x1024 .f32) :
    k0_pay9 v0 v2 v3 v4 v5 v10 v12 vc = k0_pay12 v2 (k0_pay5 v5) (k0_pay6 v0 v3 v4) (k0_pay7 v10) (k0_pay8 v12) vc := rfl
theorem chunk1 (v2 : Vec F S1024 .f32) (v6 : FVec F S1024x1024 .bf16) (v9 v11 : FVec F S1x1024 .f32) (v13 : FVec F S1x1 .f32)
    (vc : Vec F S1x256x1024 .f32) : k0_pay11 v2 v6 v9 v11 v13 (k0_pay10 vc) = k0_pay12 v2 v6 v9 v11 v13 vc := rfl
theorem chunk3 (v2 : Vec F S1024 .f32) (v6 : FVec F S1024x1024 .bf16) (v9 v11 : FVec F S1x1024 .f32) (v13 : FVec F S1x1 .f32)
    (vc : Vec F S1x256x1024 .f32) : k0_pay14 v9 v11 v13 (k0_pay13 v2 v6 vc) = k0_pay12 v2 v6 v9 v11 v13 vc := rfl
theorem chunk4 (v2 : Vec F S1024 .f32) (v6 : FVec F S1024x1024 .bf16) (v9 v11 : FVec F S1x1024 .f32) (v13 : FVec F S1x1 .f32)
    (vc : Vec F S1x256x1024 .f32) : k0_pay15 v2 v6 v9 v11 v13 vc = k0_pay12 v2 v6 v9 v11 v13 vc := rfl
theorem chunk5 (v2 : Vec F S1024 .f32) (v6 : FVec F S1024x1024 .bf16) (v9 v11 : FVec F S1x1024 .f32) (v13 : FVec F S1x1 .f32)
    (vc : Vec F S1x256x1024 .f32) : k0_pay17 v13 (k0_pay16 v2 v6 v9 v11 vc) = k0_pay12 v2 v6 v9 v11 v13 vc := rfl
theorem chunk6 (v2 : Vec F S1024 .f32) (v6 : FVec F S1024x1024 .bf16) (v9 v11 : FVec F S1x1024 .f32) (v13 : FVec F S1x1 .f32)
    (vc : Vec F S1x256x1024 .f32) : k0_pay18 v2 v6 v9 v11 v13 vc = k0_pay12 v2 v6 v9 v11 v13 vc := rfl
theorem chunk7 (v2 : Vec F S1024 .f32) (v6 : FVec F S1024x1024 .bf16) (v9 v11 : FVec F S1x1024 .f32) (v13 : FVec F S1x1 .f32)
    (vc : Vec F S1x256x1024 .f32) : k0_pay1 (k0_pay19 v2 v6 v9 v11 v13 vc) = k0_pay12 v2 v6 v9 v11 v13 vc := rfl

end AnyInstance

/-- The inserted index of a sum along the columns of a 256 x 1024 block is (p, k). -/
theorem lift_row (h : S256x1024.Reduces [1] S256) (p : Fin 256) (k : Fin 1024) : h.lift (ix1 p) k = ix2 p k :=
  funext fun a => Fin.ext (by match a with | ⟨0, _⟩ => rfl | ⟨1, _⟩ => rfl)

/-- One chunk's score at row `p`. -/
theorem chunk_apply (v2 : Vec Ideal S1024 .f32) (v6 : FVec Ideal S1024x1024 .bf16) (v9 v11 : FVec Ideal S1x1024 .f32)
    (v13 : FVec Ideal S1x1 .f32) (vc : Vec Ideal S1x256x1024 .f32) (p : Fin 256) :
    k0_pay12 v2 v6 v9 v11 v13 vc (ix2 p (0 : Fin 1))
      = (∑ u : Fin 1024, Ideal.tanh (((∑ d : Fin 1024, vc (ix3 (0 : Fin 1) p d) * v6 (ix2 d u)) + v2 (ix1 u)) + v9 (ix2 (0 : Fin 1) u))
            * v11 (ix2 (0 : Fin 1) u)) + v13 (ix2 (0 : Fin 1) (0 : Fin 1)) := by
  unfold k0_pay12
  rw [shapeCast_self]
  refine congrArg₂ (· + ·) ?_ (broadcastTo_1b_ab_apply v13 _ p (0 : Fin 1))
  refine (shapeCast_a_a1_apply _ _ p (0 : Fin 1)).trans ?_
  refine (Ideal.multiReduction_add_single _ _ reduces_S256x1024_S256 _ _ (ix1 p)).trans ?_
  refine Finset.sum_congr rfl fun u _ => ?_
  have e : reduces_S256x1024_S256.lift (ix1 p) u = ix2 p u := lift_row _ p u
  rw [e]
  refine congrArg₂ (· * ·) (congrArg Ideal.tanh ?_) (broadcastTo_1b_ab_apply v11 _ p u)
  refine congrArg₂ (· + ·) (congrArg₂ (· + ·) ?_ ?_) (broadcastTo_1b_ab_apply v9 _ p u)
  · refine (matmul_zero_at (Plain.of_lists dot_S256x1024_S1024x1024_S256x1024_1_0_0_1_n_n rfl rfl rfl rfl rfl rfl) none _ v6 p u).trans ?_
    refine Finset.sum_congr rfl fun d _ => ?_
    exact congrArg (· * v6 (ix2 d u)) (shapeCast_1ab_ab_apply vc _ p d)
  · exact (broadcastTo_1b_ab_apply _ _ p u).trans (shapeCast_a_1a_apply v2 _ (0 : Fin 1) u)

/-- The projected query row at column `u`: the sum over d of q d * W2 d u, plus b2 u. -/
theorem qproj_apply (v0 : Vec Ideal S1x1x1024 .f32) (v3 : Vec Ideal S1024x1024 .f32) (v4 : Vec Ideal S1024 .f32) (u : Fin 1024) :
    k0_pay6 v0 v3 v4 (ix2 (0 : Fin 1) u)
      = (∑ d : Fin 1024, v0 (ix3 (0 : Fin 1) (0 : Fin 1) d) * v3 (ix2 d u)) + v4 (ix1 u) := by
  unfold k0_pay6
  refine congrArg₂ (· + ·) ?_ (shapeCast_a_1a_apply v4 _ (0 : Fin 1) u)
  refine (matmul_zero_at (Plain.of_lists dot_S1x1024_S1024x1024_S1x1024_1_0_0_1_n_n rfl rfl rfl rfl rfl rfl) none _ v3 (0 : Fin 1) u).trans ?_
  refine Finset.sum_congr rfl fun d _ => ?_
  exact congrArg (· * v3 (ix2 d u)) (shapeCast_1ab_ab_apply v0 _ (0 : Fin 1) d)

/-- The column of Vw laid as a row. -/
theorem vwrow_apply (v10 : Vec Ideal S1024x1 .f32) (u : Fin 1024) : k0_pay7 v10 (ix2 (0 : Fin 1) u) = v10 (ix2 u (0 : Fin 1)) := by
  unfold k0_pay7
  exact transpose_ix2_apply v10 _ (0 : Fin 1) u

/-- The scalar Vb as a 1 x 1 array. -/
theorem vb_apply (v12 : Vec Ideal S1 .f32) : k0_pay8 v12 (ix2 (0 : Fin 1) (0 : Fin 1)) = v12 (ix1 (0 : Fin 1)) := by
  unfold k0_pay8
  exact shapeCast_a_1a_apply v12 _ (0 : Fin 1) (0 : Fin 1)

/-- The bf16 copy of W1 is read as it is. -/
theorem w1_apply {F : FTy → Type} [FloatOps F] (v5 : Vec F S1024x1024 .bf16) : k0_pay5 v5 = v5 := by
  unfold k0_pay5
  exact shapeCast_self _ _

end Cert.Attn.Kernel

end
-- ==== Proof.Spec.lean ====
/-
  Additive attention, stated once over plain coordinates.

  For one batch entry with query row q (length 1024) and value rows v (2048 rows of length 1024):
    score r   = (sum over u of tanh ((sum_d v r d * W1 d u + b1 u) + (sum_d q d * W2 d u + b2 u)) * vw u) + vb
    top s     = the maximum of the 2048 scores, folded from the word both programs start from (minus infinity)
    weight s k = exp (s k - top s) / (sum over j of exp (s j - top s))        (the softmax over the rows)
    context d = sum over k of weight s k * v k d
  and the two results as functions of the eight argument arrays: the context vectors [32, 1024] and the
  attention weights [32, 2048, 1].  Everything is an extended real; no law here needs finiteness.
-/
import Idealize.ShloMosaic.PureOps.Ideal.Laws
import Idealize.ShloMosaic.Lib.ValueIdx
import Mathlib.Data.Finset.Fold

noncomputable section

namespace Cert.Attn

open Idealize.ShloMosaic Idealize.ShloMosaic.ValueIdx

/-- The score of value row `r`. -/
def score (q : Fin 1024 → EReal) (v : Fin 2048 → Fin 1024 → EReal) (W1 W2 : Fin 1024 → Fin 1024 → EReal)
    (b1 b2 vw : Fin 1024 → EReal) (vb : EReal) (r : Fin 2048) : EReal :=
  (∑ u : Fin 1024, Ideal.tanh (((∑ d : Fin 1024, v r d * W1 d u) + b1 u) + ((∑ d : Fin 1024, q d * W2 d u) + b2 u)) * vw u) + vb

/-- The largest score, as the fold of `max` from minus infinity (kept as the word it is printed as). -/
def top (s : Fin 2048 → EReal) : EReal :=
  (Finset.univ : Finset (Fin 2048)).fold max (Ideal.ofBits .f32 0xFF800000#32) s

/-- The softmax weight of row `k`. -/
def weight (s : Fin 2048 → EReal) (k : Fin 2048) : EReal :=
  Ideal.div (Ideal.exp (s k - top s)) (∑ j : Fin 2048, Ideal.exp (s j - top s))

/-- The weighted sum of the value rows, at column `d`. -/
def context (s : Fin 2048 → EReal) (v : Fin 2048 → Fin 1024 → EReal) (d : Fin 1024) : EReal :=
  ∑ k : Fin 2048, weight s k * v k d

/-- Folding `max` from a value never goes below it, so one more `max` with that value changes nothing. -/
theorem max_fold_self {ι : Type} (a : EReal) (s : Finset ι) (f : ι → EReal) : max a (s.fold max a f) = s.fold max a f := by
  classical
  refine max_eq_right ?_
  induction s using Finset.induction_on with
  | empty => simp
  | insert x s hx ih => rw [Finset.fold_insert hx]; exact le_max_of_le_right ih

section Arrays

variable (A0 : (⟨3, ![32, 1, 1024]⟩ : Shape).Idx → EReal) (A1 : (⟨3, ![32, 2048, 1024]⟩ : Shape).Idx → EReal)
  (A2 : (⟨2, ![1024, 1024]⟩ : Shape).Idx → EReal) (A3 : (⟨1, ![1024]⟩ : Shape).Idx → EReal)
  (A4 : (⟨2, ![1024, 1024]⟩ : Shape).Idx → EReal) (A5 : (⟨1, ![1024]⟩ : Shape).Idx → EReal)
  (A6 : (⟨2, ![1024, 1]⟩ : Shape).Idx → EReal) (A7 : (⟨1, ![1]⟩ : Shape).Idx → EReal)

/-- The scores of batch entry `b`, from the argument arrays. -/
def scoreOf (b : Fin 32) : Fin 2048 → EReal :=
  score (fun d => A0 (ix3 b 0 d)) (fun r d => A1 (ix3 b r d)) (fun d u => A2 (ix2 d u)) (fun d u => A4 (ix2 d u))
    (fun u => A3 (ix1 u)) (fun u => A5 (ix1 u)) (fun u => A6 (ix2 u 0)) (A7 (ix1 0))

/-- The context vectors, as the kernel's first output array [32, 1, 1024] holds them. -/
def ctxBlocks : (⟨3, ![32, 1, 1024]⟩ : Shape).Idx → EReal :=
  fun i => context (scoreOf A0 A1 A2 A3 A4 A5 A6 A7 (i 0)) (fun r d => A1 (ix3 (i 0) r d)) (i 2)

/-- The attention weights, as the kernel's second output array [32, 1, 2048] holds them (one row per batch entry). -/
def attnBlocks : (⟨3, ![32, 1, 2048]⟩ : Shape).Idx → EReal :=
  fun i => weight (scoreOf A0 A1 A2 A3 A4 A5 A6 A7 (i 0)) (i 2)

/-- The first result: the context vectors [32, 1024]. -/
def ctxOut : (⟨2, ![32, 1024]⟩ : Shape).Idx → EReal :=
  fun i => context (scoreOf A0 A1 A2 A3 A4 A5 A6 A7 (i 0)) (fun r d => A1 (ix3 (i 0) r d)) (i 1)

/-- The second result: the attention weights [32, 2048, 1]. -/
def attnOut : (⟨3, ![32, 2048, 1]⟩ : Shape).Idx → EReal :=
  fun i => weight (scoreOf A0 A1 A2 A3 A4 A5 A6 A7 (i 0)) (i 1)

end Arrays

end Cert.Attn

end
-- ==== Proof.Softmax.lean ====
/-
  The softmax over the 2048 scores and the weighted sum of the value rows, as the body computes them from the score
  column s (2048 x 1) it reads back:
      m = the maximum of the column (a fold of max from minus infinity),   p k = exp (s k - m),   l = sum over j of p j,
      the weights row (1 x 2048) at k is p k / l,
      the context row at d is the sum over k of (p k / l) * v k d        (a 1 x 2048 by 2048 x 1024 product),
  each read at an index as Cert.Attn.weight / Cert.Attn.context of the column.
-/
import proofs.«179657_j90993177133839_2_alg».proof.Proof.Gen.KernelIdeal.Skeleton
import proofs.«179657_j90993177133839_2_alg».proof.Proof.LibPlainLists
import proofs.«179657_j90993177133839_2_alg».proof.Proof.LibKeepdims
import proofs.«179657_j90993177133839_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Kernel

open Idealize.ShloMosaic Idealize.ShloMosaic.ValueIdx Cert.KernelIdeal Cert.KernelIdeal.Gen Cert.LibMatmulSum

/-- The inserted index of a reduction down the one column of a 2048 x 1 array is (j, 0). -/
theorem lift_col (h : S2048x1.Reduces [0] S1) (j : Fin 2048) : h.lift (ix1 (0 : Fin 1)) j = ix2 j (0 : Fin 1) :=
  funext fun a => Fin.ext (by match a with | ⟨0, _⟩ => rfl | ⟨1, _⟩ => rfl)

/-- The score column as a function of the row. -/
abbrev col (s : Vec Ideal S2048x1 .f32) : Fin 2048 → EReal := fun j => s (ix2 j (0 : Fin 1))

/-- The column's maximum is the fold of max over its rows. -/
theorem colmax_apply (s : Vec Ideal S2048x1 .f32) :
    multiReduction (F := Ideal) .maximumf [0] S1 s 0xFF800000#32 reduces_S2048x1_S1 (.inl rfl) rfl (ix1 (0 : Fin 1)) = Cert.Attn.top (col s) := by
  refine (Ideal.multiReduction_maximumf_single s _ reduces_S2048x1_S1 _ _ (ix1 (0 : Fin 1))).trans ?_
  unfold Cert.Attn.top
  exact congrArg (Finset.univ.fold max _) (funext fun j => congrArg s (lift_col _ j))

/-- The weights, laid as a row, at column `k`. -/
theorem weights_apply (s : Vec Ideal S2048x1 .f32) (k : Fin 2048) :
    k0_pay2 s (ix2 (0 : Fin 1) k) = Cert.Attn.weight (col s) k := by
  unfold k0_pay2
  refine (transpose_ix2_apply _ _ (0 : Fin 1) k).trans ?_
  unfold Cert.Attn.weight
  have hm : ∀ j : Fin 2048, (broadcastTo S2048x1 (shapeCast S1x1 (multiReduction (F := Ideal) .maximumf [0] S1 s 0xFF800000#32 reduces_S2048x1_S1 (.inl rfl) rfl) shapeCasts_S1_S1x1) broadcasts_S1x1_S2048x1 : FVec Ideal S2048x1 .f32) (ix2 j (0 : Fin 1)) = Cert.Attn.top (col s) := fun j =>
    (broadcastTo_1b_ab_apply _ _ j (0 : Fin 1)).trans ((shapeCast_a_1a_apply _ _ (0 : Fin 1) (0 : Fin 1)).trans (colmax_apply s))
  refine congrArg₂ Ideal.div (congrArg Ideal.exp (congrArg (s (ix2 k (0 : Fin 1)) - ·) (hm k))) ?_
  refine (broadcastTo_1b_ab_apply _ _ k (0 : Fin 1)).trans ((shapeCast_a_1a_apply _ _ (0 : Fin 1) (0 : Fin 1)).trans ?_)
  refine (Ideal.multiReduction_add_single _ _ reduces_S2048x1_S1 _ _ (ix1 (0 : Fin 1))).trans ?_
  refine Finset.sum_congr rfl fun j _ => ?_
  have e : reduces_S2048x1_S1.lift (ix1 (0 : Fin 1)) j = ix2 j (0 : Fin 1) := lift_col _ j
  rw [e]
  exact congrArg Ideal.exp (congrArg (s (ix2 j (0 : Fin 1)) - ·) (hm j))

/-- The stored weights row (1 x 1 x 2048) at column `k`. -/
theorem weights_out_apply (s : Vec Ideal S2048x1 .f32) (k : Fin 2048) :
    k0_pay4 s (ix3 (0 : Fin 1) (0 : Fin 1) k) = Cert.Attn.weight (col s) k := by
  unfold k0_pay4
  exact (shapeCast_ab_1ab_apply _ _ (0 : Fin 1) (0 : Fin 1) k).trans (weights_apply s k)

/-- The stored context row (1 x 1 x 1024) at column `d`. -/
theorem context_out_apply (s : Vec Ideal S2048x1 .f32) (v : Vec Ideal S1x2048x1024 .f32) (d : Fin 1024) :
    k0_pay3 s v (ix3 (0 : Fin 1) (0 : Fin 1) d) = Cert.Attn.context (col s) (fun k d => v (ix3 (0 : Fin 1) k d)) d := by
  unfold k0_pay3
  refine (shapeCast_ab_1ab_apply _ _ (0 : Fin 1) (0 : Fin 1) d).trans ?_
  refine (matmul_zero_at (Plain.of_lists dot_S1x2048_S2048x1024_S1x1024_1_0_0_1_n_n rfl rfl rfl rfl rfl rfl) none _ _ (0 : Fin 1) d).trans ?_
  unfold Cert.Attn.context
  refine Finset.sum_congr rfl fun k _ => ?_
  exact congrArg₂ (· * ·) (weights_apply s k) (shapeCast_1ab_ab_apply v _ k d)

end Cert.Attn.Kernel

end
-- ==== Proof.Point.lean ====
/-
  One grid point (one batch entry).  The body writes the score column in eight pieces of 256 rows, reads the whole column
  back, and stores the context row and the weights row.  Here:
  * the eight pieces, named once: piece o holds one chunk's scores (Chunk) of the 256 value rows from row o;
  * what each output's staging buffer ends with is the softmax payload (Softmax) of the column read back;
  * the column read back, at row r, is the score of value row r (the piece covering r is the one from 256 * (r / 256));
  * so the context row at d is Cert.Attn.context and the weights row at k is Cert.Attn.weight of the point's blocks.
-/
import proofs.«179657_j90993177133839_2_alg».proof.Proof.Gen.KernelIdeal.Frame
import proofs.«179657_j90993177133839_2_alg».proof.Proof.Chunk
import proofs.«179657_j90993177133839_2_alg».proof.Proof.Softmax
import proofs.«179657_j90993177133839_2_alg».proof.Proof.Spec

set_option maxRecDepth 16384

noncomputable section

namespace Cert.Attn.Kernel

open Idealize.ShloMosaic Idealize.ShloMosaic.ValueIdx Idealize.ShloMosaic.TcCoe Idealize.ShloMosaic.Tactic
open Idealize.SL Idealize.SL.Sem
open Cert.KernelIdeal Cert.KernelIdeal.Gen

theorem hz1 : (![0] : Fin 1 → Nat) = fun _ => 0 := funext fun a => by match a with | ⟨0, _⟩ => rfl
theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

section AnyInstance
variable {F : FTy → Type} [FloatOps F]

/-- The piece of the score column from row `o`: one chunk's scores of the value rows o … o + 255. -/
def piece (o : Nat) (inb : ∀ a, (![o, 0] : Fin 2 → Nat) a + S256x1.size a ≤ S2048x1.size a)
    (inb' : ∀ a, (![0, o, 0] : Fin 3 → Nat) a + S1x256x1024.size a ≤ S1x2048x1024.size a)
    (x0 : Vec F S1x1x1024 .f32) (x1 : Vec F S1x2048x1024 .f32) (x2 : Vec F S1024x1024 .bf16) (x3 : Vec F S1024 .f32) (x4 : Vec F S1024x1024 .f32) (x5 : Vec F S1024 .f32) (x6 : Vec F S1024x1 .f32) (x7 : Vec F S1 .f32) : View.Piece (Elt F) S2048x1 .f32 :=
  ⟨Rect.unit (s := S2048x1) ![o, 0] S256x1.size inb,
    k0_pay12 x3 (k0_pay5 x2) (k0_pay6 x0 x4 x5) (k0_pay7 x6) (k0_pay8 x7)
      (View.ld x1 (Rect.unit (s := S1x2048x1024) ![0, o, 0] S1x256x1024.size inb'))⟩

/-- The eight pieces, last stored first. -/
def pieces (x0 : Vec F S1x1x1024 .f32) (x1 : Vec F S1x2048x1024 .f32) (x2 : Vec F S1024x1024 .bf16) (x3 : Vec F S1024 .f32) (x4 : Vec F S1024x1024 .f32) (x5 : Vec F S1024 .f32) (x6 : Vec F S1024x1 .f32) (x7 : Vec F S1 .f32) : List (View.Piece (Elt F) S2048x1 .f32) :=
  [piece 1792 inb_S2048x1_S256x1_1792_0 inb_S1x2048x1024_S1x256x1024_0_1792_0 x0 x1 x2 x3 x4 x5 x6 x7,
   piece 1536 inb_S2048x1_S256x1_1536_0 inb_S1x2048x1024_S1x256x1024_0_1536_0 x0 x1 x2 x3 x4 x5 x6 x7,
   piece 1280 inb_S2048x1_S256x1_1280_0 inb_S1x2048x1024_S1x256x1024_0_1280_0 x0 x1 x2 x3 x4 x5 x6 x7,
   piece 1024 inb_S2048x1_S256x1_1024_0 inb_S1x2048x1024_S1x256x1024_0_1024_0 x0 x1 x2 x3 x4 x5 x6 x7,
   piece 768 inb_S2048x1_S256x1_768_0 inb_S1x2048x1024_S1x256x1024_0_768_0 x0 x1 x2 x3 x4 x5 x6 x7,
   piece 512 inb_S2048x1_S256x1_512_0 inb_S1x2048x1024_S1x256x1024_0_512_0 x0 x1 x2 x3 x4 x5 x6 x7,
   piece 256 inb_S2048x1_S256x1_256_0 inb_S1x2048x1024_S1x256x1024_0_256_0 x0 x1 x2 x3 x4 x5 x6 x7,
   piece 0 inb_S2048x1_S256x1_0_0 inb_S1x2048x1024_S1x256x1024_0_0_0 x0 x1 x2 x3 x4 x5 x6 x7]

/-- The score column as the body reads it back. -/
def column (arg11 : Memref sig .tc .vmem S2048x1 .f32) (x0 : Vec F S1x1x1024 .f32) (x1 : Vec F S1x2048x1024 .f32) (x2 : Vec F S1024x1024 .bf16) (x3 : Vec F S1024 .f32) (x4 : Vec F S1024x1024 .f32) (x5 : Vec F S1024 .f32) (x6 : Vec F S1024x1 .f32) (x7 : Vec F S1 .f32) : Vec F S2048x1 .f32 :=
  arg11.view.readCov (pieces x0 x1 x2 x3 x4 x5 x6 x7) (Rect.unit (s := S2048x1) ![0, 0] S2048x1.size inb_S2048x1_S2048x1_0_0).toLoadRect

/-- The context output's staging buffer ends with the context payload of the column and the value block. -/
theorem out8_eq (c : Dev nD) (i : grid0.Coords) (arg1 : Memref sig .tc .vmem S1x1x1024 .f32) (harg1 : arg1.IsWhole) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1 .f32) (harg8 : arg8.IsWhole) (arg9 : Memref sig .tc .vmem S1x1x1024 .f32) (harg9 : arg9.IsWhole) (arg10 : Memref sig .tc .vmem S1x1x2048 .f32) (harg10 : arg10.IsWhole) (arg11 : Memref sig .tc .vmem S2048x1 .f32) (harg11 : arg11.IsWhole)
    (x0 : Vec F S1x1x1024 .f32) (x1 : Vec F S1x2048x1024 .f32) (x2 : Vec F S1024x1024 .bf16) (x3 : Vec F S1024 .f32) (x4 : Vec F S1024x1024 .f32) (x5 : Vec F S1024 .f32) (x6 : Vec F S1024x1 .f32) (x7 : Vec F S1 .f32) :
    out0_A_8 c i arg1 harg1 arg2 harg2 arg3 harg3 arg4 harg4 arg5 harg5 arg6 harg6 arg7 harg7 arg8 harg8 arg9 harg9 arg10 harg10 arg11 harg11 x0 x1 x2 x3 x4 x5 x6 x7 = k0_pay3 (column arg11 x0 x1 x2 x3 x4 x5 x6 x7) x1 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_unit_zero hz3]
  simp only [View.readAt_eq_ld, Memref.IsWhole.read_unread, View.ld_unit_zero (S := S1024) hz1, View.ld_unit_zero (S := S1) hz1,
    View.ld_unit_zero (S := S1024x1024) hz2, View.ld_unit_zero (S := S1024x1) hz2, View.ld_unit_zero (S := S1x1x1024) hz3,
    View.ld_unit_zero (S := S1x2048x1024) hz3]
  rfl

/-- The weights output's staging buffer ends with the weights payload of the column. -/
theorem out9_eq (c : Dev nD) (i : grid0.Coords) (arg1 : Memref sig .tc .vmem S1x1x1024 .f32) (harg1 : arg1.IsWhole) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1 .f32) (harg8 : arg8.IsWhole) (arg9 : Memref sig .tc .vmem S1x1x1024 .f32) (harg9 : arg9.IsWhole) (arg10 : Memref sig .tc .vmem S1x1x2048 .f32) (harg10 : arg10.IsWhole) (arg11 : Memref sig .tc .vmem S2048x1 .f32) (harg11 : arg11.IsWhole)
    (x0 : Vec F S1x1x1024 .f32) (x1 : Vec F S1x2048x1024 .f32) (x2 : Vec F S1024x1024 .bf16) (x3 : Vec F S1024 .f32) (x4 : Vec F S1024x1024 .f32) (x5 : Vec F S1024 .f32) (x6 : Vec F S1024x1 .f32) (x7 : Vec F S1 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 = k0_pay4 (column arg11 x0 x1 x2 x3 x4 x5 x6 x7) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_unit_zero hz3]
  simp only [View.readAt_eq_ld, Memref.IsWhole.read_unread, View.ld_unit_zero (S := S1024) hz1, View.ld_unit_zero (S := S1) hz1,
    View.ld_unit_zero (S := S1024x1024) hz2, View.ld_unit_zero (S := S1024x1) hz2, View.ld_unit_zero (S := S1x1x1024) hz3,
    View.ld_unit_zero (S := S1x2048x1024) hz3]
  rfl

end AnyInstance

/-- The scores of the point's value rows, from the point's blocks. -/
def scoreFn (x0 : Vec Ideal S1x1x1024 .f32) (x1 : Vec Ideal S1x2048x1024 .f32) (x2 : Vec Ideal S1024x1024 .bf16) (x3 : Vec Ideal S1024 .f32) (x4 : Vec Ideal S1024x1024 .f32) (x5 : Vec Ideal S1024 .f32) (x6 : Vec Ideal S1024x1 .f32) (x7 : Vec Ideal S1 .f32) : Fin 2048 → EReal :=
  Cert.Attn.score (fun d => x0 (ix3 (0 : Fin 1) (0 : Fin 1) d)) (fun r d => x1 (ix3 (0 : Fin 1) r d)) (fun d u => x2 (ix2 d u))
    (fun d u => x4 (ix2 d u)) (fun u => x3 (ix1 u)) (fun u => x5 (ix1 u)) (fun u => x6 (ix2 u (0 : Fin 1))) (x7 (ix1 (0 : Fin 1)))

/-- A piece's value at its local row is the score of the value row under it. -/
theorem piece_ok (o : Nat) (inb : ∀ a, (![o, 0] : Fin 2 → Nat) a + S256x1.size a ≤ S2048x1.size a)
    (inb' : ∀ a, (![0, o, 0] : Fin 3 → Nat) a + S1x256x1024.size a ≤ S1x2048x1024.size a)
    (x0 : Vec Ideal S1x1x1024 .f32) (x1 : Vec Ideal S1x2048x1024 .f32) (x2 : Vec Ideal S1024x1024 .bf16) (x3 : Vec Ideal S1024 .f32) (x4 : Vec Ideal S1024x1024 .f32) (x5 : Vec Ideal S1024 .f32) (x6 : Vec Ideal S1024x1 .f32) (x7 : Vec Ideal S1 .f32) (x : (piece o inb inb' x0 x1 x2 x3 x4 x5 x6 x7).1.shape.Idx) :
    (piece o inb inb' x0 x1 x2 x3 x4 x5 x6 x7).2 x = scoreFn x0 x1 x2 x3 x4 x5 x6 x7 (((piece o inb inb' x0 x1 x2 x3 x4 x5 x6 x7).1.emb x) 0) := by
  obtain ⟨pr, rfl⟩ : ∃ pr : Fin 256, x = ix2 pr (0 : Fin 1) :=
    ⟨x 0, (eq_ix2 x).trans (congrArg (ix2 (x 0)) (Fin.ext (Nat.lt_one_iff.mp (x 1).isLt)))⟩
  unfold piece
  dsimp only
  rw [chunk_apply, w1_apply]
  unfold scoreFn Cert.Attn.score
  refine congrArg₂ (· + ·) (Finset.sum_congr rfl fun u _ => ?_) (vb_apply x7)
  rw [qproj_apply, vwrow_apply]
  refine congrArg (fun z => Ideal.tanh ((z + x3 (ix1 u)) + ((∑ d : Fin 1024, x0 (ix3 (0 : Fin 1) (0 : Fin 1) d) * x4 (ix2 d u)) + x5 (ix1 u))) * x6 (ix2 u (0 : Fin 1)))
    (Finset.sum_congr rfl fun d _ => ?_)
  refine congrArg (· * x2 (ix2 d u)) (congrArg x1 (funext fun a => Fin.ext ?_))
  match a with
  | ⟨0, _⟩ => rfl
  | ⟨1, _⟩ => rfl
  | ⟨2, _⟩ => show 0 + 1 * d.val = d.val; omega

/-- The eight pieces cover the column. -/
theorem pieces_cover (x0 : Vec Ideal S1x1x1024 .f32) (x1 : Vec Ideal S1x2048x1024 .f32) (x2 : Vec Ideal S1024x1024 .bf16) (x3 : Vec Ideal S1024 .f32) (x4 : Vec Ideal S1024x1024 .f32) (x5 : Vec Ideal S1024 .f32) (x6 : Vec Ideal S1024x1 .f32) (x7 : Vec Ideal S1 .f32) (y : S2048x1.Idx) : ∃ p ∈ pieces x0 x1 x2 x3 x4 x5 x6 x7, y ∈ p.1.set :=
  View.cover_of_tiledL (pieces x0 x1 x2 x3 x4 x5 x6 x7) S256x1.size (by sl_kernel_rfl) y

/-- The column read back, at row `r`, is the score of value row `r`. -/
theorem column_apply (arg11 : Memref sig .tc .vmem S2048x1 .f32) (x0 : Vec Ideal S1x1x1024 .f32) (x1 : Vec Ideal S1x2048x1024 .f32) (x2 : Vec Ideal S1024x1024 .bf16) (x3 : Vec Ideal S1024 .f32) (x4 : Vec Ideal S1024x1024 .f32) (x5 : Vec Ideal S1024 .f32) (x6 : Vec Ideal S1024x1 .f32) (x7 : Vec Ideal S1 .f32) (r : Fin 2048) :
    column arg11 x0 x1 x2 x3 x4 x5 x6 x7 (ix2 r (0 : Fin 1)) = scoreFn x0 x1 x2 x3 x4 x5 x6 x7 r := by
  unfold column
  rw [View.readCov_eq_canon_ld _ _ _ (pieces_cover x0 x1 x2 x3 x4 x5 x6 x7), View.ld_unit_zero hz2]
  refine View.canon_apply_of_pieces (fun y : S2048x1.Idx => scoreFn x0 x1 x2 x3 x4 x5 x6 x7 (y 0)) (pieces x0 x1 x2 x3 x4 x5 x6 x7) (fun p hp x => ?_)
    (ix2 r (0 : Fin 1)) (pieces_cover x0 x1 x2 x3 x4 x5 x6 x7 _)
  simp only [pieces, List.mem_cons, List.mem_nil_iff, or_false] at hp
  rcases hp with rfl | rfl | rfl | rfl | rfl | rfl | rfl | rfl <;> exact piece_ok _ _ _ x0 x1 x2 x3 x4 x5 x6 x7 x

/-- The context row the point stores, at column `d`. -/
theorem out8_apply (c : Dev nD) (i : grid0.Coords) (arg1 : Memref sig .tc .vmem S1x1x1024 .f32) (harg1 : arg1.IsWhole) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1 .f32) (harg8 : arg8.IsWhole) (arg9 : Memref sig .tc .vmem S1x1x1024 .f32) (harg9 : arg9.IsWhole) (arg10 : Memref sig .tc .vmem S1x1x2048 .f32) (harg10 : arg10.IsWhole) (arg11 : Memref sig .tc .vmem S2048x1 .f32) (harg11 : arg11.IsWhole)
    (x0 : Vec Ideal S1x1x1024 .f32) (x1 : Vec Ideal S1x2048x1024 .f32) (x2 : Vec Ideal S1024x1024 .bf16) (x3 : Vec Ideal S1024 .f32) (x4 : Vec Ideal S1024x1024 .f32) (x5 : Vec Ideal S1024 .f32) (x6 : Vec Ideal S1024x1 .f32) (x7 : Vec Ideal S1 .f32) (d : Fin 1024) :
    out0_A_8 c i arg1 harg1 arg2 harg2 arg3 harg3 arg4 harg4 arg5 harg5 arg6 harg6 arg7 harg7 arg8 harg8 arg9 harg9 arg10 harg10 arg11 harg11 x0 x1 x2 x3 x4 x5 x6 x7 (ix3 (0 : Fin 1) (0 : Fin 1) d)
      = Cert.Attn.context (scoreFn x0 x1 x2 x3 x4 x5 x6 x7) (fun k d => x1 (ix3 (0 : Fin 1) k d)) d := by
  rw [out8_eq, context_out_apply]
  exact congrArg (fun s => Cert.Attn.context s (fun k d => x1 (ix3 (0 : Fin 1) k d)) d) (funext fun r => column_apply arg11 x0 x1 x2 x3 x4 x5 x6 x7 r)

/-- The weights row the point stores, at column `k`. -/
theorem out9_apply (c : Dev nD) (i : grid0.Coords) (arg1 : Memref sig .tc .vmem S1x1x1024 .f32) (harg1 : arg1.IsWhole) (arg2 : Memref sig .tc .vmem S1x2048x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1 .f32) (harg8 : arg8.IsWhole) (arg9 : Memref sig .tc .vmem S1x1x1024 .f32) (harg9 : arg9.IsWhole) (arg10 : Memref sig .tc .vmem S1x1x2048 .f32) (harg10 : arg10.IsWhole) (arg11 : Memref sig .tc .vmem S2048x1 .f32) (harg11 : arg11.IsWhole)
    (x0 : Vec Ideal S1x1x1024 .f32) (x1 : Vec Ideal S1x2048x1024 .f32) (x2 : Vec Ideal S1024x1024 .bf16) (x3 : Vec Ideal S1024 .f32) (x4 : Vec Ideal S1024x1024 .f32) (x5 : Vec Ideal S1024 .f32) (x6 : Vec Ideal S1024x1 .f32) (x7 : Vec Ideal S1 .f32) (k : Fin 2048) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 (ix3 (0 : Fin 1) (0 : Fin 1) k) = Cert.Attn.weight (scoreFn x0 x1 x2 x3 x4 x5 x6 x7) k := by
  rw [out9_eq, weights_out_apply]
  exact congrArg (fun s => Cert.Attn.weight s k) (funext fun r => column_apply arg11 x0 x1 x2 x3 x4 x5 x6 x7 r)

end Cert.Attn.Kernel

end
-- ==== Proof.Blocks.lean ====
/-
  From the grid points to the two output arrays.  Point t handles batch entry t: its query block is row t of the query
  array, its value block is slab t of the values, and the six weight windows are the whole weight arrays at every point
  (the bf16 copy of W1 is W1 itself at the ideal values).  So what point t writes back is block t of ONE function of the
  argument arrays — Cert.Attn.ctxBlocks for the context output, Cert.Attn.attnBlocks for the weights output — and, the 32
  blocks tiling each output array, the arrays end holding those functions.
-/
import proofs.«179657_j90993177133839_2_alg».proof.Proof.Point
import Idealize.ShloMosaic.Lib.StableHlo.Run

set_option maxRecDepth 16384

noncomputable section

namespace Cert.Attn.Kernel

open Idealize.ShloMosaic Idealize.ShloMosaic.ValueIdx Idealize.ShloMosaic.TcCoe Idealize.ShloMosaic.Tactic
open Idealize.SL Idealize.SL.Sem
open Cert.KernelIdeal Cert.KernelIdeal.Gen

variable (m : (ℓ : Loc nD τ sig) → Buf (Elt Ideal) ℓ)

/-- The printed index maps over the grid: the query, value and output windows move with the point along the batch axis;
    the weight windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) = t.val ∧ win0_8.index t (1 : Fin 3) = 0 ∧ win0_8.index t (2 : Fin 3) = 0
    ∧ win0_9.index t (0 : Fin 3) = t.val ∧ win0_9.index t (1 : Fin 3) = 0 ∧ win0_9.index t (2 : Fin 3) = 0 :=
  (by decide +kernel : ∀ t : Fin grid0.N, _)

/-- The batch entry of point `t`. -/
abbrev batch (t : Fin cfg0.N) : Fin 32 := t.cast N_0

/-- The bf16 copy of W1 the region finds is W1 (a change of format is the identity at the ideal values). -/
theorem V_w1 (c : Dev nD) : (V m c main_v0 : S1024x1024.Idx → EReal) = m ((c : Thread nD τ).loc main_arg2) := by
  show StableHlo.after hostOps0 (fun b => m (c, b)) (Proc.devRef .tc main_v0) = _
  after_results
  rfl

/-! ### Each window's block at a point, read at an index -/

theorem blk0 (c : Dev nD) (t : Fin cfg0.N) (d : Fin 1024) :
    (iblk m c 0 t : S1x1x1024.Idx → EReal) (ix3 (0 : Fin 1) (0 : Fin 1) d) = m ((c : Thread nD τ).loc main_arg0) (ix3 (batch t) (0 : Fin 1) d) := by
  show V m c main_arg0 (((cfg0.win 0).blk t).view.emb (ix3 (0 : Fin 1) (0 : Fin 1) d)) = _
  rw [V_main_arg0]
  refine congrArg _ (funext fun a => Fin.ext ?_)
  obtain ⟨e0, e1, e2, -⟩ := idx_facts t
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 1024 + 1 * d.val = d.val; omega

theorem blk1 (c : Dev nD) (t : Fin cfg0.N) (r : Fin 2048) (d : Fin 1024) :
    (iblk m c 1 t : S1x2048x1024.Idx → EReal) (ix3 (0 : Fin 1) r d) = m ((c : Thread nD τ).loc main_arg1) (ix3 (batch t) r d) := by
  show V m c main_arg1 (((cfg0.win 1).blk t).view.emb (ix3 (0 : Fin 1) r d)) = _
  rw [V_main_arg1]
  refine congrArg _ (funext fun a => Fin.ext ?_)
  obtain ⟨-, -, -, e0, e1, e2, -⟩ := idx_facts t
  match a with
  | ⟨0, _⟩ => show win0_1.index t (0 : Fin 3) * 1 + 1 * 0 = t.val; omega
  | ⟨1, _⟩ => show win0_1.index t (1 : Fin 3) * 2048 + 1 * r.val = r.val; omega
  | ⟨2, _⟩ => show win0_1.index t (2 : Fin 3) * 1024 + 1 * d.val = d.val; omega

theorem blk2 (c : Dev nD) (t : Fin cfg0.N) (d u : Fin 1024) :
    (iblk m c 2 t : S1024x1024.Idx → EReal) (ix2 d u) = m ((c : Thread nD τ).loc main_arg2) (ix2 d u) := by
  show V m c main_v0 (((cfg0.win 2).blk t).view.emb (ix2 d u)) = _
  rw [V_w1]
  refine congrArg _ (funext fun a => Fin.ext ?_)
  obtain ⟨-, -, -, -, -, -, e0, e1, -⟩ := idx_facts t
  match a with
  | ⟨0, _⟩ => show win0_2.index t (0 : Fin 2) * 1024 + 1 * d.val = d.val; omega
  | ⟨1, _⟩ => show win0_2.index t (1 : Fin 2) * 1024 + 1 * u.val = u.val; omega

theorem blk3 (c : Dev nD) (t : Fin cfg0.N) (u : Fin 1024) :
    (iblk m c 3 t : S1024.Idx → EReal) (ix1 u) = m ((c : Thread nD τ).loc main_arg3) (ix1 u) := by
  show V m c main_arg3 (((cfg0.win 3).blk t).view.emb (ix1 u)) = _
  rw [V_main_arg3]
  refine congrArg _ (funext fun a => Fin.ext ?_)
  obtain ⟨-, -, -, -, -, -, -, -, e0, -⟩ := idx_facts t
  match a with
  | ⟨0, _⟩ => show win0_3.index t (0 : Fin 1) * 1024 + 1 * u.val = u.val; omega

theorem blk4 (c : Dev nD) (t : Fin cfg0.N) (d u : Fin 1024) :
    (iblk m c 4 t : S1024x1024.Idx → EReal) (ix2 d u) = m ((c : Thread nD τ).loc main_arg4) (ix2 d u) := by
  show V m c main_arg4 (((cfg0.win 4).blk t).view.emb (ix2 d u)) = _
  rw [V_main_arg4]
  refine congrArg _ (funext fun a => Fin.ext ?_)
  obtain ⟨-, -, -, -, -, -, -, -, -, e0, e1, -⟩ := idx_facts t
  match a with
  | ⟨0, _⟩ => show win0_4.index t (0 : Fin 2) * 1024 + 1 * d.val = d.val; omega
  | ⟨1, _⟩ => show win0_4.index t (1 : Fin 2) * 1024 + 1 * u.val = u.val; omega

theorem blk5 (c : Dev nD) (t : Fin cfg0.N) (u : Fin 1024) :
    (iblk m c 5 t : S1024.Idx → EReal) (ix1 u) = m ((c : Thread nD τ).loc main_arg5) (ix1 u) := by
  show V m c main_arg5 (((cfg0.win 5).blk t).view.emb (ix1 u)) = _
  rw [V_main_arg5]
  refine congrArg _ (funext fun a => Fin.ext ?_)
  obtain ⟨-, -, -, -, -, -, -, -, -, -, -, e0, -⟩ := idx_facts t
  match a with
  | ⟨0, _⟩ => show win0_5.index t (0 : Fin 1) * 1024 + 1 * u.val = u.val; omega

theorem blk6 (c : Dev nD) (t : Fin cfg0.N) (u : Fin 1024) :
    (iblk m c 6 t : S1024x1.Idx → EReal) (ix2 u (0 : Fin 1)) = m ((c : Thread nD τ).loc main_arg6) (ix2 u (0 : Fin 1)) := by
  show V m c main_arg6 (((cfg0.win 6).blk t).view.emb (ix2 u (0 : Fin 1))) = _
  rw [V_main_arg6]
  refine congrArg _ (funext fun a => Fin.ext ?_)
  obtain ⟨-, -, -, -, -, -, -, -, -, -, -, -, e0, e1, -⟩ := idx_facts t
  match a with
  | ⟨0, _⟩ => show win0_6.index t (0 : Fin 2) * 1024 + 1 * u.val = u.val; omega
  | ⟨1, _⟩ => show win0_6.index t (1 : Fin 2) * 1 + 1 * 0 = 0; omega

theorem blk7 (c : Dev nD) (t : Fin cfg0.N) :
    (iblk m c 7 t : S1.Idx → EReal) (ix1 (0 : Fin 1)) = m ((c : Thread nD τ).loc main_arg7) (ix1 (0 : Fin 1)) := by
  show V m c main_arg7 (((cfg0.win 7).blk t).view.emb (ix1 (0 : Fin 1))) = _
  rw [V_main_arg7]
  refine congrArg _ (funext fun a => Fin.ext ?_)
  obtain ⟨-, -, -, -, -, -, -, -, -, -, -, -, -, -, e0, -⟩ := idx_facts t
  match a with
  | ⟨0, _⟩ => show win0_7.index t (0 : Fin 1) * 1 + 1 * 0 = 0; omega

/-- The scores of point `t`'s blocks are the scores of batch entry `t`. -/
theorem scoreFn_blocks (c : Dev nD) (t : Fin cfg0.N) :
    scoreFn (iblk m c 0 t) (iblk m c 1 t) (iblk m c 2 t) (iblk m c 3 t) (iblk m c 4 t) (iblk m c 5 t) (iblk m c 6 t) (iblk m c 7 t)
      = Cert.Attn.scoreOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batch t) := by
  unfold scoreFn Cert.Attn.scoreOf
  simp only [blk0, blk1, blk2, blk3, blk4, blk5, blk6, blk7]

/-! ### The context output (window 8) -/

/-- What point `t` writes back to the context output is block `t` of the context vectors. -/
theorem flushed8_eq (c : Dev nD) (t : Fin cfg0.N) :
    (dats m 0 c).flushed 8 t = ((cfg0.win 8).blk t).view.read (Elt Ideal) (Cert.Attn.ctxBlocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show (cfg0.win 8).cut (grid0.coords t) ((dats m 0 c).after 8 t) = _
  rw [after0_8]
  unfold outsAt0
  dsimp only
  funext j
  obtain ⟨d, rfl⟩ : ∃ d : Fin 1024, j = ix3 (0 : Fin 1) (0 : Fin 1) d :=
    ⟨j 2, (eq_ix3 j).trans (by
      rw [show j 0 = (0 : Fin 1) from Fin.ext (Nat.lt_one_iff.mp (j 0).isLt), show j 1 = (0 : Fin 1) from Fin.ext (Nat.lt_one_iff.mp (j 1).isLt)]; rfl)⟩
  refine (out8_apply c (grid0.coords t) _ _ _ _ _ _ _ _ _ _ _ _ _ _ _ _ _ _ _ _ _ _ _ _ _ _ _ _ _ _ d).trans ?_
  rw [scoreFn_blocks]
  show _ = Cert.Attn.ctxBlocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb (ix3 (0 : Fin 1) (0 : Fin 1) d))
  have he : ((cfg0.win 8).blk t).view.emb (ix3 (0 : Fin 1) (0 : Fin 1) d) = ix3 (batch t) (0 : Fin 1) d := by
    refine funext fun a => Fin.ext ?_
    obtain ⟨-, -, -, -, -, -, -, -, -, -, -, -, -, -, -, e0, e1, e2, -⟩ := idx_facts t
    match a with
    | ⟨0, _⟩ => show win0_8.index t (0 : Fin 3) * 1 + 1 * 0 = t.val; omega
    | ⟨1, _⟩ => show win0_8.index t (1 : Fin 3) * 1 + 1 * 0 = 0; omega
    | ⟨2, _⟩ => show win0_8.index t (2 : Fin 3) * 1024 + 1 * d.val = d.val; omega
  rw [he]
  exact congrArg (fun v => Cert.Attn.context (Cert.Attn.scoreOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batch t)) v d)
    (funext fun k => funext fun d' => blk1 m c t k d')

/-- An index of the context array is in point `t`'s block iff each coordinate is in the block's range. -/
theorem mem_blk8 (t : Fin cfg0.N) (i : S32x1x1024.Idx) :
    i ∈ ((cfg0.win 8).blk t).view.set ↔ ∀ a : Fin 3, win0_8.index t a * S1x1x1024.size a ≤ (i a).val ∧ (i a).val < win0_8.index t a * S1x1x1024.size a + S1x1x1024.size a := by
  show i ∈ ((View.whole main_v1_0).slice (win0_8.rect t)).set ↔ _
  rw [View.set_slice_whole, Rect.mem_set_unit]
  exact Iff.rfl

/-- Every index of the context array is in the block of the point of its batch entry. -/
theorem cover8 (i : S32x1x1024.Idx) : ∃ t : Fin cfg0.N, (cfg0.win 8).flush t = true ∧ i ∈ ((cfg0.win 8).blk t).view.set := by
  refine ⟨⟨(i 0).val, (i 0).isLt⟩, flush0_8 _, ?_⟩
  rw [mem_blk8]
  obtain ⟨-, -, -, -, -, -, -, -, -, -, -, -, -, -, -, e0, e1, e2, -⟩ := idx_facts ⟨(i 0).val, (i 0).isLt⟩
  have e0' : win0_8.index ⟨(i 0).val, (i 0).isLt⟩ (0 : Fin 3) = (i 0).val := e0
  have h1 : (i 1).val < 1 := (i 1).isLt
  have h2 : (i 2).val < 1024 := (i 2).isLt
  intro a
  match a with
  | ⟨0, _⟩ => show win0_8.index ⟨(i 0).val, (i 0).isLt⟩ (0 : Fin 3) * 1 ≤ (i 0).val ∧ (i 0).val < win0_8.index ⟨(i 0).val, (i 0).isLt⟩ (0 : Fin 3) * 1 + 1; omega
  | ⟨1, _⟩ => show win0_8.index ⟨(i 0).val, (i 0).isLt⟩ (1 : Fin 3) * 1 ≤ (i 1).val ∧ (i 1).val < win0_8.index ⟨(i 0).val, (i 0).isLt⟩ (1 : Fin 3) * 1 + 1; omega
  | ⟨2, _⟩ => show win0_8.index ⟨(i 0).val, (i 0).isLt⟩ (2 : Fin 3) * 1024 ≤ (i 2).val ∧ (i 2).val < win0_8.index ⟨(i 0).val, (i 0).isLt⟩ (2 : Fin 3) * 1024 + 1024; omega

/-- The context array after the run: the context vectors of the arguments. -/
theorem final8 (c : Dev nD) : (dats m 0 c).arrAt 8 cfg0.N = Cert.Attn.ctxBlocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed8_eq m c t) cover8

/-! ### The weights output (window 9) -/

/-- What point `t` writes back to the weights output is block `t` of the attention weights. -/
theorem flushed9_eq (c : Dev nD) (t : Fin cfg0.N) :
    (dats m 0 c).flushed 9 t = ((cfg0.win 9).blk t).view.read (Elt Ideal) (Cert.Attn.attnBlocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show (cfg0.win 9).cut (grid0.coords t) ((dats m 0 c).after 9 t) = _
  rw [after0_9]
  unfold outsAt0
  dsimp only
  funext j
  obtain ⟨k, rfl⟩ : ∃ k : Fin 2048, j = ix3 (0 : Fin 1) (0 : Fin 1) k :=
    ⟨j 2, (eq_ix3 j).trans (by
      rw [show j 0 = (0 : Fin 1) from Fin.ext (Nat.lt_one_iff.mp (j 0).isLt), show j 1 = (0 : Fin 1) from Fin.ext (Nat.lt_one_iff.mp (j 1).isLt)]; rfl)⟩
  refine (out9_apply c (grid0.coords t) _ _ _ _ _ _ _ _ _ _ _ _ _ _ _ _ _ _ _ _ _ _ _ _ _ _ _ _ _ _ k).trans ?_
  rw [scoreFn_blocks]
  show _ = Cert.Attn.attnBlocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb (ix3 (0 : Fin 1) (0 : Fin 1) k))
  have he : ((cfg0.win 9).blk t).view.emb (ix3 (0 : Fin 1) (0 : Fin 1) k) = ix3 (batch t) (0 : Fin 1) k := by
    refine funext fun a => Fin.ext ?_
    obtain ⟨-, -, -, -, -, -, -, -, -, -, -, -, -, -, -, -, -, -, e0, e1, e2⟩ := idx_facts t
    match a with
    | ⟨0, _⟩ => show win0_9.index t (0 : Fin 3) * 1 + 1 * 0 = t.val; omega
    | ⟨1, _⟩ => show win0_9.index t (1 : Fin 3) * 1 + 1 * 0 = 0; omega
    | ⟨2, _⟩ => show win0_9.index t (2 : Fin 3) * 2048 + 1 * k.val = k.val; omega
  rw [he]
  rfl

/-- An index of the weights array is in point `t`'s block iff each coordinate is in the block's range. -/
theorem mem_blk9 (t : Fin cfg0.N) (i : S32x1x2048.Idx) :
    i ∈ ((cfg0.win 9).blk t).view.set ↔ ∀ a : Fin 3, win0_9.index t a * S1x1x2048.size a ≤ (i a).val ∧ (i a).val < win0_9.index t a * S1x1x2048.size a + S1x1x2048.size a := by
  show i ∈ ((View.whole main_v1_1).slice (win0_9.rect t)).set ↔ _
  rw [View.set_slice_whole, Rect.mem_set_unit]
  exact Iff.rfl

/-- Every index of the weights array is in the block of the point of its batch entry. -/
theorem cover9 (i : S32x1x2048.Idx) : ∃ t : Fin cfg0.N, (cfg0.win 9).flush t = true ∧ i ∈ ((cfg0.win 9).blk t).view.set := by
  refine ⟨⟨(i 0).val, (i 0).isLt⟩, flush0_9 _, ?_⟩
  rw [mem_blk9]
  obtain ⟨-, -, -, -, -, -, -, -, -, -, -, -, -, -, -, -, -, -, e0, e1, e2⟩ := idx_facts ⟨(i 0).val, (i 0).isLt⟩
  have e0' : win0_9.index ⟨(i 0).val, (i 0).isLt⟩ (0 : Fin 3) = (i 0).val := e0
  have h1 : (i 1).val < 1 := (i 1).isLt
  have h2 : (i 2).val < 2048 := (i 2).isLt
  intro a
  match a with
  | ⟨0, _⟩ => show win0_9.index ⟨(i 0).val, (i 0).isLt⟩ (0 : Fin 3) * 1 ≤ (i 0).val ∧ (i 0).val < win0_9.index ⟨(i 0).val, (i 0).isLt⟩ (0 : Fin 3) * 1 + 1; omega
  | ⟨1, _⟩ => show win0_9.index ⟨(i 0).val, (i 0).isLt⟩ (1 : Fin 3) * 1 ≤ (i 1).val ∧ (i 1).val < win0_9.index ⟨(i 0).val, (i 0).isLt⟩ (1 : Fin 3) * 1 + 1; omega
  | ⟨2, _⟩ => show win0_9.index ⟨(i 0).val, (i 0).isLt⟩ (2 : Fin 3) * 2048 ≤ (i 2).val ∧ (i 2).val < win0_9.index ⟨(i 0).val, (i 0).isLt⟩ (2 : Fin 3) * 2048 + 2048; omega

/-- The weights array after the run: the attention weights of the arguments, one row per batch entry. -/
theorem final9 (c : Dev nD) : (dats m 0 c).arrAt 9 cfg0.N = Cert.Attn.attnBlocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 _ (fun t _ => flushed9_eq m c t) cover9

end Cert.Attn.Kernel

end
-- ==== Proof.KernelRun.lean ====
/-
  The kernel program's run, read.  After the region the program reshapes the context array [32, 1, 1024] to [32, 1024] and
  swaps the last two axes of the weights array [32, 1, 2048] to [32, 2048, 1].  Entry (b, d) of the first is entry
  (b, 0, d) of the context blocks; entry (b, k, 0) of the second is entry (b, 0, k) of the weights blocks: the two
  results are Cert.Attn.ctxOut and Cert.Attn.attnOut of the argument arrays, and the arguments end unchanged.
-/
import proofs.«179657_j90993177133839_2_alg».proof.Proof.Blocks
import Idealize.ShloMosaic.Lib.StableHlo.Run
import Idealize.ShloMosaic.Lib.ValueLayout

set_option maxRecDepth 16384

noncomputable section

namespace Cert.Attn.Kernel

open Idealize.ShloMosaic Idealize.ShloMosaic.ValueIdx Idealize.ShloMosaic.TcCoe Idealize.ShloMosaic.Tactic
open Idealize.SL Idealize.SL.Sem
open Cert.KernelIdeal Cert.KernelIdeal.Gen

variable (m : (ℓ : Loc nD τ sig) → Buf (Elt Ideal) ℓ) (ρ : Dev nD → PrngReg)

/-- The context array as the lines after the region find it. -/
theorem arr_ctx (c : Dev nD) :
    Pipeline.withArrays (cfgs 0).spec c (V0 m c) (fun w => (dats m 0 c).arrAt w (cfgs 0).N) (Proc.devRef .tc main_v1_0) = Cert.Attn.ctxBlocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Pipeline.withArrays_arr spec0 launch0.win.arr_inj c _ _ 8).trans (final8 m c)

/-- The weights array as the lines after the region find it. -/
theorem arr_attn (c : Dev nD) :
    Pipeline.withArrays (cfgs 0).spec c (V0 m c) (fun w => (dats m 0 c).arrAt w (cfgs 0).N) (Proc.devRef .tc main_v1_1) = Cert.Attn.attnBlocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (Pipeline.withArrays_arr spec0 launch0.win.arr_inj c _ _ 9).trans (final9 m c)

/-- The first result: the context blocks with the unit axis dropped. -/
theorem tail_ctx (c : Dev nD) :
    Pipeline.afterTail₀ cfgs (dats m) 0 (V0 m) [hostOps1] c main_v2 = Cert.Attn.ctxOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v2) = _
  after_results
  funext i
  obtain ⟨b, d, rfl⟩ : ∃ (b : Fin 32) (d : Fin 1024), i = ix2 b d := ⟨i 0, i 1, eq_ix2 i⟩
  show shapeCast S32x1024 (Pipeline.withArrays (cfgs 0).spec c (V0 m c) (fun w => (dats m 0 c).arrAt w (cfgs 0).N) (Proc.devRef .tc main_v1_0)) shapeCasts_S32x1x1024_S32x1024 (ix2 b d) = _
  rw [arr_ctx]
  refine (shapeCast_apply _ _ (ix2 b d) (ix3 b (0 : Fin 1) d) ?_).trans rfl
  rw [Shape.rowMajor_val_three, Shape.rowMajor_val_two]
  show (b.val * 1 + 0) * 1024 + d.val = b.val * 1024 + d.val
  omega

/-- The second result: the weights blocks with their last two axes swapped. -/
theorem tail_attn (c : Dev nD) :
    Pipeline.afterTail₀ cfgs (dats m) 0 (V0 m) [hostOps1] c main_v3 = Cert.Attn.attnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v3) = _
  after_results
  funext i
  obtain ⟨b, k, rfl⟩ : ∃ (b : Fin 32) (k : Fin 2048), i = ix3 b k (0 : Fin 1) :=
    ⟨i 0, i 1, (eq_ix3 i).trans (by rw [show i 2 = (0 : Fin 1) from Fin.ext (Nat.lt_one_iff.mp (i 2).isLt)]; rfl)⟩
  show transpose S32x2048x1 [0, 2, 1] (Pipeline.withArrays (cfgs 0).spec c (V0 m c) (fun w => (dats m 0 c).arrAt w (cfgs 0).N) (Proc.devRef .tc main_v1_1)) transposes_S32x1x2048_S32x2048x1_0_2_1 (ix3 b k (0 : Fin 1)) = _
  rw [arr_attn]
  exact (transpose_ix3_021_apply _ _ b k (0 : Fin 1)).trans rfl

/-- Every weakly fair execution of the kernel program ends with its two results at the context vectors and the attention
    weights of the argument arrays, and the arguments unchanged. -/
theorem run : θ_run defs (onTc (τ := τ) (main (F := Ideal))) ⟨m, fun _ => 0, ρ⟩ (fun r => ∀ c : Dev nD,
      r.2.mem ((c.tc : Thread nD τ).loc main_v2) = Cert.Attn.ctxOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v3) = Cert.Attn.attnOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).2 main_v2 (Pipeline.mem_restRefs_of main_v2 (by decide) (by decide))).trans (tail_ctx m c),
      ((h c).2 main_v3 (Pipeline.mem_restRefs_of main_v3 (by decide) (by decide))).trans (tail_attn m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.Attn.Kernel

end
-- ==== Proof.RefValue.lean ====
/-
  The reference's two results are the specification, index by index.

  The reference computes, for batch entry b, row r and hidden unit u,
    h = tanh ((((sum_d values b r d * W1 d u) + b1 u) + (sum_d query b d * W2 d u)) + b2 u),
    score = (sum_u h * Vw u) + Vb,
    m = max (-inf) (the maximum of the 2048 scores folded from -inf),
    p = exp (score - m),  l = 0 + sum p,  attn = p / l,  ctx = 0 + sum_r attn * values.
  The specification groups the argument of tanh as (x + b1) + (y + b2) (associativity of addition of
  extended reals), takes the maximum as the fold alone (one more max with the value the fold started from
  changes nothing) and has no leading zero on its sums.
-/
import proofs.«179657_j90993177133839_2_alg».proof.Proof.Gen.ReferenceIdeal.Read
import proofs.«179657_j90993177133839_2_alg».proof.Proof.Spec
import Idealize.ShloMosaic.PureOps.Ideal.Laws
import Idealize.ShloMosaic.Lib.ValueIdx
import Idealize.ShloMosaic.Lib.Pipeline.Value

noncomputable section

namespace Cert.Attn.Ref

open Idealize.ShloMosaic Idealize.ShloMosaic.ValueIdx Cert.ReferenceIdeal Cert.ReferenceIdeal.Gen Cert.ReferenceIdeal.Read

/-! ## The composed index functions of the generated reading lemmas, over plain coordinates -/

theorem lidx0 (b : Fin 32) (r : Fin 2048) (u d : Fin 1024) : lidx_main_v0 (ix3 b r u) d = ix3 b r d :=
  funext fun a => by match a with | ⟨0, _⟩ => rfl | ⟨1, _⟩ => rfl | ⟨2, _⟩ => rfl
theorem ridx0 (b : Fin 32) (r : Fin 2048) (u d : Fin 1024) : ridx_main_v0 (ix3 b r u) d = ix2 d u :=
  funext fun a => by match a with | ⟨0, _⟩ => rfl | ⟨1, _⟩ => rfl
theorem idx12 (b : Fin 32) (r : Fin 2048) (u : Fin 1024) : idx_main_v1 (idx_main_v2 (ix3 b r u)) = ix1 u :=
  funext fun a => by match a with | ⟨0, _⟩ => rfl
theorem lidx45 (b : Fin 32) (r : Fin 2048) (u d : Fin 1024) : lidx_main_v4 (idx_main_v5 (ix3 b r u)) d = ix3 b 0 d :=
  funext fun a => by match a with | ⟨0, _⟩ => rfl | ⟨1, _⟩ => rfl | ⟨2, _⟩ => rfl
theorem ridx45 (b : Fin 32) (r : Fin 2048) (u d : Fin 1024) : ridx_main_v4 (idx_main_v5 (ix3 b r u)) d = ix2 d u :=
  funext fun a => by match a with | ⟨0, _⟩ => rfl | ⟨1, _⟩ => rfl
theorem idx78 (b : Fin 32) (r : Fin 2048) (u : Fin 1024) : idx_main_v7 (idx_main_v8 (ix3 b r u)) = ix1 u :=
  funext fun a => by match a with | ⟨0, _⟩ => rfl
theorem lidx11 (b : Fin 32) (r : Fin 2048) (z : Fin 1) (u : Fin 1024) : lidx_main_v11 (ix3 b r z) u = ix3 b r u :=
  funext fun a => by match a with | ⟨0, _⟩ => rfl | ⟨1, _⟩ => rfl | ⟨2, _⟩ => rfl
theorem ridx11 (b : Fin 32) (r : Fin 2048) (u : Fin 1024) : ridx_main_v11 (ix3 b r (0 : Fin 1)) u = ix2 u 0 :=
  funext fun a => by match a with | ⟨0, _⟩ => rfl | ⟨1, _⟩ => rfl
theorem idx1213 (b : Fin 32) (r : Fin 2048) (z : Fin 1) : idx_main_v12 (idx_main_v13 (ix3 b r z)) = ix1 0 :=
  funext fun a => by match a with | ⟨0, _⟩ => rfl
theorem idx1819 (b : Fin 32) (r : Fin 2048) (z : Fin 1) : idx_main_v18 (idx_main_v19 (ix3 b r z)) = ix2 b 0 :=
  funext fun a => by match a with | ⟨0, _⟩ => rfl | ⟨1, _⟩ => rfl
theorem idx22 (b : Fin 32) (k : Fin 2048) : idx_main_v22 (ix2 b (0 : Fin 1)) k = ix3 b k 0 :=
  funext fun a => by match a with | ⟨0, _⟩ => rfl | ⟨1, _⟩ => rfl | ⟨2, _⟩ => rfl
theorem idx2324 (b : Fin 32) (r : Fin 2048) (z : Fin 1) : idx_main_v23 (idx_main_v24 (ix3 b r z)) = ix2 b 0 :=
  funext fun a => by match a with | ⟨0, _⟩ => rfl | ⟨1, _⟩ => rfl
theorem idx26 (b : Fin 32) (k : Fin 2048) (d : Fin 1024) : idx_main_v26 (ix3 b k d) = ix3 b k 0 :=
  funext fun a => by match a with | ⟨0, _⟩ => rfl | ⟨1, _⟩ => rfl | ⟨2, _⟩ => rfl
theorem idx28 (b : Fin 32) (d : Fin 1024) (k : Fin 2048) : idx_main_v28 (ix2 b d) k = ix3 b k d :=
  funext fun a => by match a with | ⟨0, _⟩ => rfl | ⟨1, _⟩ => rfl | ⟨2, _⟩ => rfl

section Arrays

variable (A0 : (⟨3, ![32, 1, 1024]⟩ : Shape).Idx → EReal) (A1 : (⟨3, ![32, 2048, 1024]⟩ : Shape).Idx → EReal)
  (A2 : (⟨2, ![1024, 1024]⟩ : Shape).Idx → EReal) (A3 : (⟨1, ![1024]⟩ : Shape).Idx → EReal)
  (A4 : (⟨2, ![1024, 1024]⟩ : Shape).Idx → EReal) (A5 : (⟨1, ![1024]⟩ : Shape).Idx → EReal)
  (A6 : (⟨2, ![1024, 1]⟩ : Shape).Idx → EReal) (A7 : (⟨1, ![1]⟩ : Shape).Idx → EReal)

/-! ## The score -/

/-- The argument of tanh, as the reference groups it. -/
theorem pre_eq (b : Fin 32) (r : Fin 2048) (u : Fin 1024) :
    val_main_v9 (F := Ideal) A0 A1 A2 A3 A4 A5 (ix3 b r u)
      = (((∑ d : Fin 1024, A1 (ix3 b r d) * A2 (ix2 d u)) + A3 (ix1 u)) + (∑ d : Fin 1024, A0 (ix3 b 0 d) * A4 (ix2 d u))) + A5 (ix1 u) := by
  rw [val_main_v9_apply, val_main_v6_apply, val_main_v3_apply, val_main_v0_apply, val_main_v2_apply, val_main_v1_apply,
    val_main_v5_apply, val_main_v4_apply, val_main_v8_apply, val_main_v7_apply, idx12, idx78]
  simp only [lidx0, ridx0, lidx45, ridx45, Ideal.addf_def]

/-- The reference's score array at (b, r, 0) is the specification's score of row r of batch entry b. -/
theorem score_eq (b : Fin 32) (r : Fin 2048) :
    val_main_v14 (F := Ideal) A0 A1 A2 A3 A4 A5 A6 A7 (ix3 b r 0) = scoreOf A0 A1 A2 A3 A4 A5 A6 A7 b r := by
  rw [val_main_v14_apply, val_main_v11_apply, val_main_v13_apply, val_main_v12_apply, idx1213, Ideal.addf_def]
  unfold scoreOf score
  refine congrArg (· + A7 (ix1 0)) (Finset.sum_congr rfl fun u _ => ?_)
  rw [lidx11, ridx11, val_main_v10_apply, pre_eq, Ideal.hostUnary_tanh_def, add_assoc (_ + A3 (ix1 u))]

/-! ## The maximum -/

/-- The source index over (b, 0) with row k inserted on the reduced axis. -/
theorem lift_eq (h : S32x2048x1.Reduces [1] S32x1) (b : Fin 32) (k : Fin 2048) : h.lift (ix2 b (0 : Fin 1)) k = ix3 b k 0 :=
  funext fun a => Fin.ext (by match a with | ⟨0, _⟩ => rfl | ⟨1, _⟩ => rfl | ⟨2, _⟩ => rfl)

/-- The reference's row maximum at (b, 0) is the fold of max over the scores of batch entry b. -/
theorem max_eq (b : Fin 32) :
    val_main_v15 (F := Ideal) A0 A1 A2 A3 A4 A5 A6 A7 (ix2 b 0) = top (scoreOf A0 A1 A2 A3 A4 A5 A6 A7 b) := by
  unfold val_main_v15
  rw [Host.reduce_eq_fold_single FloatOps.maximumf _ _ reducesTo_S32x2048x1_S32x1_d1 (by decide) h_S_]
  unfold top
  refine congrArg (Finset.fold max (Ideal.ofBits .f32 0xFF800000#32) · Finset.univ) (funext fun k => ?_)
  exact (congrArg (val_main_v14 (F := Ideal) A0 A1 A2 A3 A4 A5 A6 A7) (lift_eq _ b k)).trans (score_eq A0 A1 A2 A3 A4 A5 A6 A7 b k)

/-- One more max with minus infinity, broadcast over the rows: still the fold. -/
theorem top_eq (b : Fin 32) (r : Fin 2048) :
    val_main_v19 (F := Ideal) A0 A1 A2 A3 A4 A5 A6 A7 (ix3 b r 0) = top (scoreOf A0 A1 A2 A3 A4 A5 A6 A7 b) := by
  rw [val_main_v19_apply, val_main_v18_apply, idx1819, val_main_v17_apply, val_main_v16_apply, val_main_cst_0_apply, max_eq,
    Ideal.maximumf_def, Ideal.ofBits_def]
  exact max_fold_self _ _ _

/-! ## The weights and the context -/

/-- The exponential of a score less the maximum. -/
theorem exp_eq (b : Fin 32) (r : Fin 2048) :
    val_main_v21 (F := Ideal) A0 A1 A2 A3 A4 A5 A6 A7 (ix3 b r 0)
      = Ideal.exp (scoreOf A0 A1 A2 A3 A4 A5 A6 A7 b r - top (scoreOf A0 A1 A2 A3 A4 A5 A6 A7 b)) := by
  rw [val_main_v21_apply, val_main_v20_apply, score_eq, top_eq, Ideal.hostUnary_exp_def, Ideal.subf_def]

/-- The normaliser: the sum of the exponentials over the rows (the reference's leading zero dropped). -/
theorem sum_eq (b : Fin 32) (r : Fin 2048) :
    val_main_v24 (F := Ideal) A0 A1 A2 A3 A4 A5 A6 A7 (ix3 b r 0)
      = ∑ j : Fin 2048, Ideal.exp (scoreOf A0 A1 A2 A3 A4 A5 A6 A7 b j - top (scoreOf A0 A1 A2 A3 A4 A5 A6 A7 b)) := by
  rw [val_main_v24_apply, val_main_v23_apply, idx2324, val_main_v22_apply, val_main_cst_1_apply, Ideal.ofBits_def,
    Ideal.ofBits_zero_f32, zero_add]
  refine Finset.sum_congr rfl fun j _ => ?_
  rw [idx22, exp_eq]

/-- The reference's attention weight at (b, r, 0) is the specification's softmax weight. -/
theorem weight_eq (b : Fin 32) (r : Fin 2048) :
    val_main_v25 (F := Ideal) A0 A1 A2 A3 A4 A5 A6 A7 (ix3 b r 0) = weight (scoreOf A0 A1 A2 A3 A4 A5 A6 A7 b) r := by
  rw [val_main_v25_apply, exp_eq, sum_eq, Ideal.hostDivf_def]
  rfl

/-- The second result: the attention weights. -/
theorem attn_eq : val_main_v25 (F := Ideal) A0 A1 A2 A3 A4 A5 A6 A7 = attnOut A0 A1 A2 A3 A4 A5 A6 A7 := by
  funext i
  obtain ⟨b, r, rfl⟩ : ∃ (b : Fin 32) (r : Fin 2048), i = ix3 b r 0 :=
    ⟨i 0, i 1, funext fun a => by
      match a with
      | ⟨0, _⟩ => rfl
      | ⟨1, _⟩ => rfl
      | ⟨2, _⟩ => exact Subsingleton.elim (α := Fin 1) _ _⟩
  exact weight_eq A0 A1 A2 A3 A4 A5 A6 A7 b r

/-- The first result: the context vectors (the reference's leading zero dropped). -/
theorem ctx_eq : val_main_v28 (F := Ideal) A0 A1 A2 A3 A4 A5 A6 A7 = ctxOut A0 A1 A2 A3 A4 A5 A6 A7 := by
  funext i
  obtain ⟨b, d, rfl⟩ : ∃ (b : Fin 32) (d : Fin 1024), i = ix2 b d := ⟨i 0, i 1, eq_ix2 i⟩
  show _ = context (scoreOf A0 A1 A2 A3 A4 A5 A6 A7 b) (fun r d => A1 (ix3 b r d)) d
  unfold context
  rw [val_main_v28_apply, val_main_cst_2_apply, Ideal.ofBits_def, Ideal.ofBits_zero_f32, zero_add]
  refine Finset.sum_congr rfl fun k _ => ?_
  rw [idx28, val_main_v27_apply, val_main_v26_apply, idx26, weight_eq, Ideal.mulf_def]

end Arrays

end Cert.Attn.Ref

end
-- ==== Proof.lean ====
/-
  Additive attention: a Pallas kernel against its jnp reference, at the ideal values (floats as extended reals).

  For each batch entry both programs compute the scores of the 2048 value rows,
      score r = (sum over u of tanh ((v r · W1 + b1) u + (q · W2 + b2) u) * Vw u) + Vb,
  the softmax of the scores over the rows, and the weighted sum of the value rows.  The kernel works one batch entry per
  grid point, computes the scores in eight chunks of 256 rows into a scratch column, reads the column back, and stores the
  weights as a row that the program transposes afterwards; it multiplies by a bf16 copy of W1, which at the ideal values is
  W1.  The reference adds b2 last inside the tanh and takes one more maximum with minus infinity; the sums differ only in
  grouping.  Addition of extended reals is associative and a fold of max never goes below its start, so the two results
  are the same functions of the arguments (Cert.Attn.ctxOut, Cert.Attn.attnOut) with no use of the precondition.

  The kernel program's run is read in Proof/KernelRun.lean (through Chunk, Softmax, Point, Blocks), the reference's results
  in Proof/RefValue.lean over the generated reading of its run; the three frames are the generated ones.
-/
import proofs.«179657_j90993177133839_2_alg».proof.Defs
import proofs.«179657_j90993177133839_2_alg».proof.Proof.Gen.Kernel
import proofs.«179657_j90993177133839_2_alg».proof.Proof.Gen.Kernel.Skeleton
import proofs.«179657_j90993177133839_2_alg».proof.Proof.Gen.Kernel.Launch
import proofs.«179657_j90993177133839_2_alg».proof.Proof.Gen.Kernel.Points
import proofs.«179657_j90993177133839_2_alg».proof.Proof.Gen.Kernel.Frame
import proofs.«179657_j90993177133839_2_alg».proof.Proof.Gen.KernelIdeal
import proofs.«179657_j90993177133839_2_alg».proof.Proof.Gen.KernelIdeal.Skeleton
import proofs.«179657_j90993177133839_2_alg».proof.Proof.Gen.KernelIdeal.Launch
import proofs.«179657_j90993177133839_2_alg».proof.Proof.Gen.KernelIdeal.Points
import proofs.«179657_j90993177133839_2_alg».proof.Proof.Gen.KernelIdeal.Frame
import proofs.«179657_j90993177133839_2_alg».proof.Proof.Gen.ReferenceIdeal
import proofs.«179657_j90993177133839_2_alg».proof.Proof.Gen.Pre_finite_inputs
import proofs.«179657_j90993177133839_2_alg».proof.Proof.Gen.ReferenceIdeal.Run
import proofs.«179657_j90993177133839_2_alg».proof.Proof.Gen.ReferenceIdeal.Read
import proofs.«179657_j90993177133839_2_alg».proof.Proof.KernelRun
import proofs.«179657_j90993177133839_2_alg».proof.Proof.RefValue
import Idealize.ShloMosaic.Adequacy
import Idealize.ShloMosaic.Init

noncomputable section

namespace Cert.Proof

open Idealize.ShloMosaic Idealize.SL.Sem

/-- The word-level kernel program runs and leaves its arguments unchanged (the generated frame). -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments unchanged: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the context vectors and the attention weights of
    the arguments: the kernel's run (Proof/KernelRun.lean) and the reference's (Proof/RefValue.lean) meet at one pair
    of functions. -/
theorem algebraic : Cert.algebraic_KernelIdeal_ReferenceIdeal := by
  intro m ρ m' ρ' _ hagree
  refine ⟨_, _, Cert.Attn.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v28_eq, Cert.Attn.Ref.ctx_eq, h0, h1, h2, h3, h4, h5, h6, h7]
  · obtain ⟨h0, h1, h2, h3, h4, h5, h6, h7⟩ := hagree c
    rw [Cert.ReferenceIdeal.Read.val_main_v25_eq, Cert.Attn.Ref.attn_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
